-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x8192x128 : Shape := ⟨4, ![4, 32, 8192, 128]⟩
abbrev S4x32x16x128 : Shape := ⟨4, ![4, 32, 16, 128]⟩
abbrev S_ : Shape := ⟨0, ![]⟩

class Facts : Prop where
  bcast_S_S4x32x8192x128 : S_.BroadcastsInDim S4x32x8192x128 (![] : Fin 0 → Fin S4x32x8192x128.rank)
  reducesTo_S4x32x8192x128_S_d0_1_2_3 : S4x32x8192x128.ReducesTo [0, 1, 2, 3] S_
  h_S_ : 0 < S_.numel
  bcast_S_S4x32x16x128 : S_.BroadcastsInDim S4x32x16x128 (![] : Fin 0 → Fin S4x32x16x128.rank)
  reducesTo_S4x32x16x128_S_d0_1_2_3 : S4x32x16x128.ReducesTo [0, 1, 2, 3] S_

variable [Facts]

def fn_part1 {F : FTy → Type} [FloatOps F] (main_v13 : IVec S_ 1) (main_v16 : IVec S4x32x16x128 1) : IVec S_ 1 :=
  let main_c_5 : IVec S_ 1 := constantI S_ 1 1#1
  let main_v17 : IVec S_ 1 := (fun x v => Host.reduce IntOp.andi x v reducesTo_S4x32x16x128_S_d0_1_2_3 h_S_) main_v16 main_c_5
  let main_v18 : IVec S_ 1 := andi main_v13 main_v17
  main_v18

def fn {F : FTy → Type} [FloatOps F] (main_arg0 : FVec F S4x32x8192x128 .f32) (main_arg1 : FVec F S4x32x8192x128 .f32) (main_arg2 : FVec F S4x32x16x128 .f32) (main_arg3 : FVec F S4x32x16x128 .f32) : IVec S_ 1 :=
  let main_v0 : FVec F S4x32x8192x128 .f32 := Host.absf main_arg0
  let main_cst : FVec F S_ .f32 := constant S_ .f32 0x7F800000#32
  let main_v1 : FVec F S4x32x8192x128 .f32 := broadcastInDim S4x32x8192x128 ![] bcast_S_S4x32x8192x128 main_cst
  let main_v2 : IVec S4x32x8192x128 1 := cmpf .olt main_v0 main_v1
  let main_c : IVec S_ 1 := constantI S_ 1 1#1
  let main_v3 : IVec S_ 1 := (fun x v => Host.reduce IntOp.andi x v reducesTo_S4x32x8192x128_S_d0_1_2_3 h_S_) main_v2 main_c
  let main_v4 : FVec F S4x32x8192x128 .f32 := Host.absf main_arg1
  let main_cst_0 : FVec F S_ .f32 := constant S_ .f32 0x7F800000#32
  let main_v5 : FVec F S4x32x8192x128 .f32 := broadcastInDim S4x32x8192x128 ![] bcast_S_S4x32x8192x128 main_cst_0
  let main_v6 : IVec S4x32x8192x128 1 := cmpf .olt main_v4 main_v5
  let main_c_1 : IVec S_ 1 := constantI S_ 1 1#1
  let main_v7 : IVec S_ 1 := (fun x v => Host.reduce IntOp.andi x v reducesTo_S4x32x8192x128_S_d0_1_2_3 h_S_) main_v6 main_c_1
  let main_v8 : IVec S_ 1 := andi main_v3 main_v7
  let main_v9 : FVec F S4x32x16x128 .f32 := Host.absf main_arg2
  let main_cst_2 : FVec F S_ .f32 := constant S_ .f32 0x7F800000#32
  let main_v10 : FVec F S4x32x16x128 .f32 := broadcastInDim S4x32x16x128 ![] bcast_S_S4x32x16x128 main_cst_2
  let main_v11 : IVec S4x32x16x128 1 := cmpf .olt main_v9 main_v10
  let main_c_3 : IVec S_ 1 := constantI S_ 1 1#1
  let main_v12 : IVec S_ 1 := (fun x v => Host.reduce IntOp.andi x v reducesTo_S4x32x16x128_S_d0_1_2_3 h_S_) main_v11 main_c_3
  let main_v13 : IVec S_ 1 := andi main_v8 main_v12
  let main_v14 : FVec F S4x32x16x128 .f32 := Host.absf main_arg3
  let main_cst_4 : FVec F S_ .f32 := constant S_ .f32 0x7F800000#32
  let main_v15 : FVec F S4x32x16x128 .f32 := broadcastInDim S4x32x16x128 ![] bcast_S_S4x32x16x128 main_cst_4
  let main_v16 : IVec S4x32x16x128 1 := cmpf .olt main_v14 main_v15
  fn_part1 (F := F) main_v13 main_v16
-- ==== Kernel.lean ====
abbrev S4x32x8192x128 : Shape := ⟨4, ![4, 32, 8192, 128]⟩
abbrev S4x32x16x128 : Shape := ⟨4, ![4, 32, 16, 128]⟩
abbrev S4x32x8208x128 : Shape := ⟨4, ![4, 32, 8208, 128]⟩
abbrev S4 : Shape := ⟨1, ![4]⟩
abbrev S1 : Shape := ⟨1, ![1]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4x32x8192x128, .f32⟩
  | .hbm, ⟨1, _⟩ => ⟨S4x32x8192x128, .f32⟩
  | .hbm, ⟨2, _⟩ => ⟨S4x32x16x128, .f32⟩
  | .hbm, ⟨3, _⟩ => ⟨S4x32x16x128, .f32⟩
  | .hbm, ⟨4, _⟩ => ⟨S4x32x8208x128, .f32⟩
  | .hbm, ⟨5, _⟩ => ⟨S4x32x8208x128, .f32⟩
  | _, _ => ⟨S4x32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩

abbrev nD : Nat := 1
abbrev τ : Topo := Topo.v7x

variable {F : FTy → Type} [FloatOps F]

abbrev grid0 : Pipeline.Grid := .none

class Facts₀ : Prop where
  inb_S4_S1_0 : ∀ a, (![0] : Fin 1 → Nat) a + S1.size a ≤ S4.size a
  squeezes_S1_S_ : S1.Squeezes S_
  inb_S4x32x8208x128_S4x32x8192x128_0_0_0_0 : ∀ a, (![0, 0, 0, 0] : Fin 4 → Nat) a + S4x32x8192x128.size a ≤ S4x32x8208x128.size a
  inb_S4_S1_1 : ∀ a, (![1] : Fin 1 → Nat) a + S1.size a ≤ S4.size a
  inb_S4x32x8208x128_S4x32x16x128_0_0_8192_0 : ∀ a, (![0, 0, 8192, 0] : Fin 4 → Nat) a + S4x32x16x128.size a ≤ S4x32x8208x128.size a
  inb_S4_S1_2 : ∀ a, (![2] : Fin 1 → Nat) a + S1.size a ≤ S4.size a
  inb_S4_S1_3 : ∀ a, (![3] : Fin 1 → Nat) a + S1.size a ≤ S4.size a
  hcc0_scratch0 : 0 + S4.numel ≤ 4

variable [Facts₀]

abbrev cc0_scratch0 : DmaSems sig S4 := SemArray.consecutive 0 S4 hcc0_scratch0

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4x32x8192x128 : Shape := ⟨4, ![4, 32, 8192, 128]⟩
abbrev S4x32x16x128 : Shape := ⟨4, ![4, 32, 16, 128]⟩
abbrev S4x32x8208x128 : Shape := ⟨4, ![4, 32, 8208, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x32x8192x128, .f32⟩
  | .hbm, ⟨1, _⟩ => ⟨S4x32x8192x128, .f32⟩
  | .hbm, ⟨2, _⟩ => ⟨S4x32x16x128, .f32⟩
  | .hbm, ⟨3, _⟩ => ⟨S4x32x16x128, .f32⟩
  | .hbm, ⟨4, _⟩ => ⟨S4x32x8208x128, .f32⟩
  | .hbm, ⟨5, _⟩ => ⟨S4x32x8208x128, .f32⟩
  | _, _ => ⟨S4x32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4x32x8192x128_S4x32x16x128_S4x32x8208x128_d2 : Shape.Concatenates [S4x32x8192x128, S4x32x16x128] S4x32x8208x128 2

variable [Facts₀]

class Facts : Prop extends Facts₀ where

variable [Facts]
-- ==== Proof.KernelBody.lean ====
/-
  The body of the cache-append kernel, run once at symbolic contents.

  The kernel keeps all six arrays in HBM and stages nothing. Its body starts four transfers, each on its own DMA
  semaphore: the K cache into rows [0, 8192) of the first result, the new K rows into rows [8192, 8208) of the first
  result, and the same two for V into the second result; then it waits for the four in the order it started them.
  The two destinations inside one result are disjoint row ranges, so both transfers into it may be in flight at once:
  each borrows only its own rows of the result. After the fourth wait every array is held whole again, every semaphore
  counts zero, the four sources are as they were, and each result is the new rows written through rows [8192, 8208) over
  the cache written through rows [0, 8192) (`landed0`, `landed1`). Those two ranges tile a result, so nothing of what it
  held before the body is left in it: the contents underneath are an arbitrary filler that is never read.
-/
import proofs.«182210_j17789754540260_2_alg».proof.Proof.Gen.Kernel
import proofs.«182210_j17789754540260_2_alg».proof.Proof.Gen.Kernel.Skeleton
import Idealize.ShloMosaic.Lib.Pipeline.Routed
import Idealize.ShloMosaic.Lib.Tactic

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents type of memref `M`'s buffer on core `c`; and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own cells: its four DMA semaphores, one per transfer. -/
abbrev osem : Fin 4 → SemLoc sig := fun | 0 => .dma 0 | 1 => .dma 1 | 2 => .dma 2 | 3 => .dma 3

/-- Rows [0, 8192) of a result, every other coordinate: where a cache lands. -/
abbrev cacheRows : Rect S4x32x8208x128 :=
  Rect.unit (s := S4x32x8208x128) ![0, 0, 0, 0] S4x32x8192x128.size Facts₀.inb_S4x32x8208x128_S4x32x8192x128_0_0_0_0
/-- Rows [8192, 8208) of a result, every other coordinate: where the new rows land. -/
abbrev newRows : Rect S4x32x8208x128 :=
  Rect.unit (s := S4x32x8208x128) ![0, 0, 8192, 0] S4x32x16x128.size Facts₀.inb_S4x32x8208x128_S4x32x16x128_0_0_8192_0

/-- The first result after the body, given what the K cache and the new K rows hold. -/
abbrev landed0 (c : Dev nD) (cache : S4x32x8192x128.Idx → Elt F .f32) (fresh : S4x32x16x128.Idx → Elt F .f32) :
    Bf (F := F) c (Memref.whole main_v0_0) :=
  (Memref.whole main_v0_0).view.writes (Elt F) (Memref.whole main_v0_0).view.junk [⟨newRows, fresh⟩, ⟨cacheRows, cache⟩]
/-- The second result after the body, given what the V cache and the new V rows hold. -/
abbrev landed1 (c : Dev nD) (cache : S4x32x8192x128.Idx → Elt F .f32) (fresh : S4x32x16x128.Idx → Elt F .f32) :
    Bf (F := F) c (Memref.whole main_v0_1) :=
  (Memref.whole main_v0_1).view.writes (Elt F) (Memref.whole main_v0_1).view.junk [⟨newRows, fresh⟩, ⟨cacheRows, cache⟩]

set_option sl_exec.dmaWindow true in
/-- The body's run: from the six arrays held whole, the four cells at zero and what the core owes, the body runs to its
    return and hands back the four sources unchanged, the two results at `landed0` and `landed1` of the sources, the
    four cells at zero again, and what the core owes with the four waits recorded. -/
theorem kernelRun (c : Dev nD)
    (f0 : Bf (F := F) c (Memref.whole main_arg0)) (f1 : Bf (F := F) c (Memref.whole main_arg1))
    (f2 : Bf (F := F) c (Memref.whole main_arg2)) (f3 : Bf (F := F) c (Memref.whole main_arg3))
    (g0 : Bf (F := F) c (Memref.whole main_v0_0)) (g1 : Bf (F := F) c (Memref.whole main_v0_1))
    (W : Waits sig Unit) (Q : PUnit → sProp 𝕄) :
    iprop(pt c (Memref.whole main_arg0) f0 ∗ pt c (Memref.whole main_arg1) f1 ∗ pt c (Memref.whole main_arg2) f2 ∗ pt c (Memref.whole main_arg3) f3
      ∗ pt c (Memref.whole main_v0_0) g0 ∗ pt c (Memref.whole main_v0_1) g1
      ∗ semVal ((c : Thread nD τ), osem 0) 0 ∗ semVal ((c : Thread nD τ), osem 1) 0 ∗ semVal ((c : Thread nD τ), osem 2) 0 ∗ semVal ((c : Thread nD τ), osem 3) 0
      ∗ owes (c : Thread nD τ) 0 W
      ∗ (iprop(pt c (Memref.whole main_arg0) f0 ∗ pt c (Memref.whole main_arg1) f1 ∗ pt c (Memref.whole main_arg2) f2 ∗ pt c (Memref.whole main_arg3) f3
          ∗ pt c (Memref.whole main_v0_0) (landed0 c f0 f2) ∗ pt c (Memref.whole main_v0_1) (landed1 c f1 f3)
          ∗ semVal ((c : Thread nD τ), osem 0) 0 ∗ semVal ((c : Thread nD τ), osem 1) 0 ∗ semVal ((c : Thread nD τ), osem 2) 0 ∗ semVal ((c : Thread nD τ), osem 3) 0
          ∗ ∃ W', owes (c : Thread nD τ) 0 W') -∗ Q ⟨⟩))
      ⊢ wp frame (wpE (defs₀ (F := F)) Variants.none c none) Set.univ
        (cc0__kvcache_append_kernel (Memref.whole main_arg0) (Memref.isWhole_whole _) (Memref.whole main_arg1) (Memref.isWhole_whole _)
          (Memref.whole main_arg2) (Memref.isWhole_whole _) (Memref.whole main_arg3) (Memref.isWhole_whole _)
          (Memref.whole main_v0_0) (Memref.isWhole_whole _) (Memref.whole main_v0_1) (Memref.isWhole_whole _) cc0_scratch0) Q := by
  iintro ⟨H0, H1, H2, H3, Hv0, Hv1, Hs0, Hs1, Hs2, Hs3, HO, Hk⟩
  sl_exec!
  sl_step
  iapply Hk
  isplitl [H0]; · iexact H0
  isplitl [H1]; · iexact H1
  isplitl [H2]; · iexact H2
  isplitl [H3]; · iexact H3
  isplitl [Hv0]; · iexact Hv0
  isplitl [Hv1]; · iexact Hv1
  isplitl [Hs0]; · iexact Hs0
  isplitl [Hs1]; · iexact Hs1
  isplitl [Hs2]; · iexact Hs2
  isplitl [Hs3]; · iexact Hs3
  iexists _; iexact HO

end Cert.Proof.Kernel

end
-- ==== Proof.KernelRun.lean ====
/-
  The cache-append program's run: the proof data and the launch.

  The program is one kernel region with no host operation around it, a pipeline of one grid point that stages no
  array: all six HBM arrays are moved, or read, by the body's own transfers. So all six pass THROUGH the body's
  invariant: they enter it at the contents the program was launched with (`V`) and leave it at `Y` — the four argument
  arrays as they entered, each result at the cache with the new rows appended as the body's transfers leave it —
  beside the kernel's four DMA semaphores at zero. `run_main`: for any float values, from any memory with zero
  counters, every weakly fair execution of the program terminates without a fault, and the final memory holds `Y` in
  the six arrays. `final_arg0` … `final_v0_1` read the six arrays off that post.
-/
import proofs.«182210_j17789754540260_2_alg».proof.Proof.KernelBody
import proofs.«182210_j17789754540260_2_alg».proof.Proof.Gen.Kernel.Launch
import proofs.«182210_j17789754540260_2_alg».proof.Proof.Gen.Kernel.Frame
import proofs.«182210_j17789754540260_2_alg».proof.Proof.Gen.Kernel.Points

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## The arrays the body moves, and what they hold at its end -/

/-- The six arrays, all of them routed through the body's invariant: the four sources the transfers read and the two
    results they write. -/
abbrev held : List (Ref sig .tc) := [main_arg0, main_arg1, main_arg2, main_arg3, main_v0_0, main_v0_1]
abbrev R : Finset (Ref sig .tc) := held.toFinset

/-- The arrays' contents after the body: the region-entry contents with the first result at the K cache with the new K
    rows appended, the second at the V cache with the new V rows appended. -/
def Y (c : Dev nD) : (b : Ref sig .tc) → Buf (Elt F) ((c : Thread nD τ).loc b) :=
  Function.update (Function.update (V m c) main_v0_0 (landed0 c (V m c main_arg0) (V m c main_arg2)))
    main_v0_1 (landed1 c (V m c main_arg1) (V m c main_arg3))

theorem Y_main_v0_0 (c : Dev nD) : Y m c main_v0_0 = landed0 c (V m c main_arg0) (V m c main_arg2) := by
  unfold Y; rw [Function.update_of_ne (by decide), Function.update_self]
theorem Y_main_v0_1 (c : Dev nD) : Y m c main_v0_1 = landed1 c (V m c main_arg1) (V m c main_arg3) := by
  unfold Y; rw [Function.update_self]
theorem Y_main_arg0 (c : Dev nD) : Y m c main_arg0 = V m c main_arg0 := by
  unfold Y; rw [Function.update_of_ne (by decide), Function.update_of_ne (by decide)]
theorem Y_main_arg1 (c : Dev nD) : Y m c main_arg1 = V m c main_arg1 := by
  unfold Y; rw [Function.update_of_ne (by decide), Function.update_of_ne (by decide)]
theorem Y_main_arg2 (c : Dev nD) : Y m c main_arg2 = V m c main_arg2 := by
  unfold Y; rw [Function.update_of_ne (by decide), Function.update_of_ne (by decide)]
theorem Y_main_arg3 (c : Dev nD) : Y m c main_arg3 = V m c main_arg3 := by
  unfold Y; rw [Function.update_of_ne (by decide), Function.update_of_ne (by decide)]

/-! ## The proof data -/

/-- The body's invariant at either end of its one point: the six arrays (entering at `V`, leaving at `Y`), the four
    cells at zero, the scoped rest (none) and the generator register. No window, so no staged block to describe. -/
def dats (_ : Fin 1) (c : Dev nD) : Dat τ (Elt F) Unit ℕ (UC sig nD τ) ℕ cfg0 c where
  A w := V m c (Pipeline.arrRef (cfg0.spec) w)
  after w _ := w.elim0
  Φ t := match t with
    | ⟨0, _⟩ => Ends (cfg0.spec) osem R c (V m c)
    | ⟨_ + 1, _⟩ => Ends (cfg0.spec) osem R c (Y m c)
  q _ := fullShare
  owed _ := 0

abbrev 𝒱₀ : Variants := Variants.none

omit [FloatOps F] in
/-- The kernel's four cells at zero, one by one. -/
theorem ownSems0_eq (c : Dev nD) :
    (Pipeline.ownSems0 (Ix := Unit) (Name := ℕ) (U := UC sig nD τ) (Lvl := ℕ) (Val := Elt F) (τ := τ) osem c : sProp 𝕄)
      = iprop(semVal ((c : Thread nD τ), osem 0) 0 ∗ semVal ((c : Thread nD τ), osem 1) 0 ∗ semVal ((c : Thread nD τ), osem 2) 0
          ∗ semVal ((c : Thread nD τ), osem 3) 0) :=
  Pipeline.ownSems0_eq_of_list c osem [0, 1, 2, 3] (by decide) (by decide)

/-- The invariant's ends at this program's lists: the six arrays one by one, the four cells, no scoped rest, the
    register. -/
theorem ends_eq (c : Dev nD) (W : (b : Ref sig .tc) → Buf (Elt F) ((c : Thread nD τ).loc b)) :
    (Ends (cfg0.spec) osem R c W : sProp 𝕄)
      = iprop((pt c (Memref.whole main_arg0) (W main_arg0) ∗ pt c (Memref.whole main_arg1) (W main_arg1)
            ∗ pt c (Memref.whole main_arg2) (W main_arg2) ∗ pt c (Memref.whole main_arg3) (W main_arg3)
            ∗ pt c (Memref.whole main_v0_0) (W main_v0_0) ∗ pt c (Memref.whole main_v0_1) (W main_v0_1))
          ∗ (semVal ((c : Thread nD τ), osem 0) 0 ∗ semVal ((c : Thread nD τ), osem 1) 0 ∗ semVal ((c : Thread nD τ), osem 2) 0
            ∗ semVal ((c : Thread nD τ), osem 3) 0)
          ∗ emp ∗ ∃ r, prngReg c r) := by
  unfold Ends Pipeline.routed
  rw [bigSep_eq_bigSepL held (by decide), ownSems0_eq, scopedRest0_eq]
  rfl

/-- The library's body obligation at the one point: the invariant taken apart, the body's run applied, its post put
    back together. -/
theorem body_obligation (c : Dev nD) : BodyObligation (dats m 0 c) (defs₀ (F := F)) 𝒱₀ () Set.univ := fun t => by
  obtain rfl := fin_N0 t
  rw [show (dats m 0 c).Φ t0_0.castSucc = Ends (cfg0.spec) osem R c (V m c) from rfl,
    show (dats m 0 c).Φ t0_0.succ = Ends (cfg0.spec) osem R c (Y m c) from rfl, ends_eq, ends_eq,
    Y_main_arg0, Y_main_arg1, Y_main_arg2, Y_main_arg3, Y_main_v0_0, Y_main_v0_1]
  unfold Dat.owesAt Pipeline.owesWithin
  rw [show (dats m 0 c).owed t0_0.castSucc = 0 from rfl, show (dats m 0 c).owed t0_0.succ = 0 from rfl]
  iintro ⟨⟨⟨H0, H1, H2, H3, Hv0, Hv1⟩, ⟨Hs0, Hs1, Hs2, Hs3⟩, -, Hp⟩, ⟨%W, %hW, HO⟩, -⟩
  iapply (kernelRun c (V m c main_arg0) (V m c main_arg1) (V m c main_arg2) (V m c main_arg3) (V m c main_v0_0) (V m c main_v0_1) W)
  isplitl [H0]; · iexact H0
  isplitl [H1]; · iexact H1
  isplitl [H2]; · iexact H2
  isplitl [H3]; · iexact H3
  isplitl [Hv0]; · iexact Hv0
  isplitl [Hv1]; · iexact Hv1
  isplitl [Hs0]; · iexact Hs0
  isplitl [Hs1]; · iexact Hs1
  isplitl [Hs2]; · iexact Hs2
  isplitl [Hs3]; · iexact Hs3
  isplitl [HO]; · iexact HO
  iintro ⟨H0, H1, H2, H3, Hv0, Hv1, Hs0, Hs1, Hs2, Hs3, ⟨%W', HO⟩⟩
  isplitl [H0 H1 H2 H3 Hv0 Hv1 Hs0 Hs1 Hs2 Hs3 Hp]
  · isplitl [H0 H1 H2 H3 Hv0 Hv1]
    · isplitl [H0]; · iexact H0
      isplitl [H1]; · iexact H1
      isplitl [H2]; · iexact H2
      isplitl [H3]; · iexact H3
      isplitl [Hv0]; · iexact Hv0
      iexact Hv1
    isplitl [Hs0 Hs1 Hs2 Hs3]
    · isplitl [Hs0]; · iexact Hs0
      isplitl [Hs1]; · iexact Hs1
      isplitl [Hs2]; · iexact Hs2
      iexact Hs3
    isplitr; · iempintro
    iexact Hp
  isplitl [HO]
  · iexists W'; isplitr; · ipureintro; exact fun _ _ => Or.inl trivial
    iexact HO
  rw [show (Finset.univ : Finset (Fin cfg0.W)) = ∅ from rfl, bigSep_empty]
  iempintro

/-! ## The launch -/

/-- The layout the launch needs of the kernel's own cells: scoped, pairwise distinct, none a staging semaphore. -/
theorem ownSemFacts : Pipeline.OwnSemFacts (cfg0.spec) osem := by decide

/-- At the compiled mesh, for any float values, from any memory with zero counters: every weakly fair execution of the
    program on the TensorCores terminates, and every final state holds `Y` in the six arrays. -/
theorem run_main :
    θ_run defs (onTc (τ := τ) (main (F := F))) (s₀ m ρ) (RoutedPost cfgs (dats m) 0 R (V m) (Y m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_region cfgs 0 defs₀ 𝒱₀ m main fun c => (main_chain c).trans rfl)
    (hA := fun _ _ => rfl) (R := R) (hR := by decide) (Y := Y m) (hin := fun _ => .rfl) (hout := fun _ => .rfl)

/-! ## The final contents, read off the post -/

variable {m ρ}

/-- After the run the first result is the K cache with the new K rows appended, as the transfers leave it; -/
theorem final_v0_0 {r : PUnit × MemSt nD τ sig (Elt F)} (h : RoutedPost cfgs (dats m) 0 R (V m) (Y m) r) (c : Dev nD) :
    r.2.mem ((c : Thread nD τ).loc main_v0_0)
      = landed0 c (m ((c : Thread nD τ).loc main_arg0)) (m ((c : Thread nD τ).loc main_arg2)) :=
  ((h c).2.1 main_v0_0 (by decide)).trans (Y_main_v0_0 m c)

/-- the second the V cache with the new V rows appended; -/
theorem final_v0_1 {r : PUnit × MemSt nD τ sig (Elt F)} (h : RoutedPost cfgs (dats m) 0 R (V m) (Y m) r) (c : Dev nD) :
    r.2.mem ((c : Thread nD τ).loc main_v0_1)
      = landed1 c (m ((c : Thread nD τ).loc main_arg1)) (m ((c : Thread nD τ).loc main_arg3)) :=
  ((h c).2.1 main_v0_1 (by decide)).trans (Y_main_v0_1 m c)

/-- and the four argument arrays hold what they held at launch. -/
theorem final_arg0 {r : PUnit × MemSt nD τ sig (Elt F)} (h : RoutedPost cfgs (dats m) 0 R (V m) (Y m) r) (c : Dev nD) :
    r.2.mem ((c : Thread nD τ).loc main_arg0) = m ((c : Thread nD τ).loc main_arg0) :=
  ((h c).2.1 main_arg0 (by decide)).trans (Y_main_arg0 m c)
theorem final_arg1 {r : PUnit × MemSt nD τ sig (Elt F)} (h : RoutedPost cfgs (dats m) 0 R (V m) (Y m) r) (c : Dev nD) :
    r.2.mem ((c : Thread nD τ).loc main_arg1) = m ((c : Thread nD τ).loc main_arg1) :=
  ((h c).2.1 main_arg1 (by decide)).trans (Y_main_arg1 m c)
theorem final_arg2 {r : PUnit × MemSt nD τ sig (Elt F)} (h : RoutedPost cfgs (dats m) 0 R (V m) (Y m) r) (c : Dev nD) :
    r.2.mem ((c : Thread nD τ).loc main_arg2) = m ((c : Thread nD τ).loc main_arg2) :=
  ((h c).2.1 main_arg2 (by decide)).trans (Y_main_arg2 m c)
theorem final_arg3 {r : PUnit × MemSt nD τ sig (Elt F)} (h : RoutedPost cfgs (dats m) 0 R (V m) (Y m) r) (c : Dev nD) :
    r.2.mem ((c : Thread nD τ).loc main_arg3) = m ((c : Thread nD τ).loc main_arg3) :=
  ((h c).2.1 main_arg3 (by decide)).trans (Y_main_arg3 m c)

end Cert.Proof.Kernel

end
-- ==== Proof.KernelIdealBody.lean ====
/-
  The body of the cache-append kernel, run once at symbolic contents.

  The kernel keeps all six arrays in HBM and stages nothing. Its body starts four transfers, each on its own DMA
  semaphore: the K cache into rows [0, 8192) of the first result, the new K rows into rows [8192, 8208) of the first
  result, and the same two for V into the second result; then it waits for the four in the order it started them.
  The two destinations inside one result are disjoint row ranges, so both transfers into it may be in flight at once:
  each borrows only its own rows of the result. After the fourth wait every array is held whole again, every semaphore
  counts zero, the four sources are as they were, and each result is the new rows written through rows [8192, 8208) over
  the cache written through rows [0, 8192) (`landed0`, `landed1`). Those two ranges tile a result, so nothing of what it
  held before the body is left in it: the contents underneath are an arbitrary filler that is never read.
-/
import proofs.«182210_j17789754540260_2_alg».proof.Proof.Gen.KernelIdeal
import proofs.«182210_j17789754540260_2_alg».proof.Proof.Gen.KernelIdeal.Skeleton
import Idealize.ShloMosaic.Lib.Pipeline.Routed
import Idealize.ShloMosaic.Lib.Tactic

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents type of memref `M`'s buffer on core `c`; and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own cells: its four DMA semaphores, one per transfer. -/
abbrev osem : Fin 4 → SemLoc sig := fun | 0 => .dma 0 | 1 => .dma 1 | 2 => .dma 2 | 3 => .dma 3

/-- Rows [0, 8192) of a result, every other coordinate: where a cache lands. -/
abbrev cacheRows : Rect S4x32x8208x128 :=
  Rect.unit (s := S4x32x8208x128) ![0, 0, 0, 0] S4x32x8192x128.size Facts₀.inb_S4x32x8208x128_S4x32x8192x128_0_0_0_0
/-- Rows [8192, 8208) of a result, every other coordinate: where the new rows land. -/
abbrev newRows : Rect S4x32x8208x128 :=
  Rect.unit (s := S4x32x8208x128) ![0, 0, 8192, 0] S4x32x16x128.size Facts₀.inb_S4x32x8208x128_S4x32x16x128_0_0_8192_0

/-- The first result after the body, given what the K cache and the new K rows hold. -/
abbrev landed0 (c : Dev nD) (cache : S4x32x8192x128.Idx → Elt F .f32) (fresh : S4x32x16x128.Idx → Elt F .f32) :
    Bf (F := F) c (Memref.whole main_v0_0) :=
  (Memref.whole main_v0_0).view.writes (Elt F) (Memref.whole main_v0_0).view.junk [⟨newRows, fresh⟩, ⟨cacheRows, cache⟩]
/-- The second result after the body, given what the V cache and the new V rows hold. -/
abbrev landed1 (c : Dev nD) (cache : S4x32x8192x128.Idx → Elt F .f32) (fresh : S4x32x16x128.Idx → Elt F .f32) :
    Bf (F := F) c (Memref.whole main_v0_1) :=
  (Memref.whole main_v0_1).view.writes (Elt F) (Memref.whole main_v0_1).view.junk [⟨newRows, fresh⟩, ⟨cacheRows, cache⟩]

set_option sl_exec.dmaWindow true in
/-- The body's run: from the six arrays held whole, the four cells at zero and what the core owes, the body runs to its
    return and hands back the four sources unchanged, the two results at `landed0` and `landed1` of the sources, the
    four cells at zero again, and what the core owes with the four waits recorded. -/
theorem kernelRun (c : Dev nD)
    (f0 : Bf (F := F) c (Memref.whole main_arg0)) (f1 : Bf (F := F) c (Memref.whole main_arg1))
    (f2 : Bf (F := F) c (Memref.whole main_arg2)) (f3 : Bf (F := F) c (Memref.whole main_arg3))
    (g0 : Bf (F := F) c (Memref.whole main_v0_0)) (g1 : Bf (F := F) c (Memref.whole main_v0_1))
    (W : Waits sig Unit) (Q : PUnit → sProp 𝕄) :
    iprop(pt c (Memref.whole main_arg0) f0 ∗ pt c (Memref.whole main_arg1) f1 ∗ pt c (Memref.whole main_arg2) f2 ∗ pt c (Memref.whole main_arg3) f3
      ∗ pt c (Memref.whole main_v0_0) g0 ∗ pt c (Memref.whole main_v0_1) g1
      ∗ semVal ((c : Thread nD τ), osem 0) 0 ∗ semVal ((c : Thread nD τ), osem 1) 0 ∗ semVal ((c : Thread nD τ), osem 2) 0 ∗ semVal ((c : Thread nD τ), osem 3) 0
      ∗ owes (c : Thread nD τ) 0 W
      ∗ (iprop(pt c (Memref.whole main_arg0) f0 ∗ pt c (Memref.whole main_arg1) f1 ∗ pt c (Memref.whole main_arg2) f2 ∗ pt c (Memref.whole main_arg3) f3
          ∗ pt c (Memref.whole main_v0_0) (landed0 c f0 f2) ∗ pt c (Memref.whole main_v0_1) (landed1 c f1 f3)
          ∗ semVal ((c : Thread nD τ), osem 0) 0 ∗ semVal ((c : Thread nD τ), osem 1) 0 ∗ semVal ((c : Thread nD τ), osem 2) 0 ∗ semVal ((c : Thread nD τ), osem 3) 0
          ∗ ∃ W', owes (c : Thread nD τ) 0 W') -∗ Q ⟨⟩))
      ⊢ wp frame (wpE (defs₀ (F := F)) Variants.none c none) Set.univ
        (cc0__kvcache_append_kernel (Memref.whole main_arg0) (Memref.isWhole_whole _) (Memref.whole main_arg1) (Memref.isWhole_whole _)
          (Memref.whole main_arg2) (Memref.isWhole_whole _) (Memref.whole main_arg3) (Memref.isWhole_whole _)
          (Memref.whole main_v0_0) (Memref.isWhole_whole _) (Memref.whole main_v0_1) (Memref.isWhole_whole _) cc0_scratch0) Q := by
  iintro ⟨H0, H1, H2, H3, Hv0, Hv1, Hs0, Hs1, Hs2, Hs3, HO, Hk⟩
  sl_exec!
  sl_step
  iapply Hk
  isplitl [H0]; · iexact H0
  isplitl [H1]; · iexact H1
  isplitl [H2]; · iexact H2
  isplitl [H3]; · iexact H3
  isplitl [Hv0]; · iexact Hv0
  isplitl [Hv1]; · iexact Hv1
  isplitl [Hs0]; · iexact Hs0
  isplitl [Hs1]; · iexact Hs1
  isplitl [Hs2]; · iexact Hs2
  isplitl [Hs3]; · iexact Hs3
  iexists _; iexact HO

end Cert.Proof.KernelIdeal

end
-- ==== Proof.KernelIdealRun.lean ====
/-
  The cache-append program's run: the proof data and the launch.

  The program is one kernel region with no host operation around it, a pipeline of one grid point that stages no
  array: all six HBM arrays are moved, or read, by the body's own transfers. So all six pass THROUGH the body's
  invariant: they enter it at the contents the program was launched with (`V`) and leave it at `Y` — the four argument
  arrays as they entered, each result at the cache with the new rows appended as the body's transfers leave it —
  beside the kernel's four DMA semaphores at zero. `run_main`: for any float values, from any memory with zero
  counters, every weakly fair execution of the program terminates without a fault, and the final memory holds `Y` in
  the six arrays. `final_arg0` … `final_v0_1` read the six arrays off that post.
-/
import proofs.«182210_j17789754540260_2_alg».proof.Proof.KernelIdealBody
import proofs.«182210_j17789754540260_2_alg».proof.Proof.Gen.KernelIdeal.Launch
import proofs.«182210_j17789754540260_2_alg».proof.Proof.Gen.KernelIdeal.Frame
import proofs.«182210_j17789754540260_2_alg».proof.Proof.Gen.KernelIdeal.Points

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## The arrays the body moves, and what they hold at its end -/

/-- The six arrays, all of them routed through the body's invariant: the four sources the transfers read and the two
    results they write. -/
abbrev held : List (Ref sig .tc) := [main_arg0, main_arg1, main_arg2, main_arg3, main_v0_0, main_v0_1]
abbrev R : Finset (Ref sig .tc) := held.toFinset

/-- The arrays' contents after the body: the region-entry contents with the first result at the K cache with the new K
    rows appended, the second at the V cache with the new V rows appended. -/
def Y (c : Dev nD) : (b : Ref sig .tc) → Buf (Elt F) ((c : Thread nD τ).loc b) :=
  Function.update (Function.update (V m c) main_v0_0 (landed0 c (V m c main_arg0) (V m c main_arg2)))
    main_v0_1 (landed1 c (V m c main_arg1) (V m c main_arg3))

theorem Y_main_v0_0 (c : Dev nD) : Y m c main_v0_0 = landed0 c (V m c main_arg0) (V m c main_arg2) := by
  unfold Y; rw [Function.update_of_ne (by decide), Function.update_self]
theorem Y_main_v0_1 (c : Dev nD) : Y m c main_v0_1 = landed1 c (V m c main_arg1) (V m c main_arg3) := by
  unfold Y; rw [Function.update_self]
theorem Y_main_arg0 (c : Dev nD) : Y m c main_arg0 = V m c main_arg0 := by
  unfold Y; rw [Function.update_of_ne (by decide), Function.update_of_ne (by decide)]
theorem Y_main_arg1 (c : Dev nD) : Y m c main_arg1 = V m c main_arg1 := by
  unfold Y; rw [Function.update_of_ne (by decide), Function.update_of_ne (by decide)]
theorem Y_main_arg2 (c : Dev nD) : Y m c main_arg2 = V m c main_arg2 := by
  unfold Y; rw [Function.update_of_ne (by decide), Function.update_of_ne (by decide)]
theorem Y_main_arg3 (c : Dev nD) : Y m c main_arg3 = V m c main_arg3 := by
  unfold Y; rw [Function.update_of_ne (by decide), Function.update_of_ne (by decide)]

/-! ## The proof data -/

/-- The body's invariant at either end of its one point: the six arrays (entering at `V`, leaving at `Y`), the four
    cells at zero, the scoped rest (none) and the generator register. No window, so no staged block to describe. -/
def dats (_ : Fin 1) (c : Dev nD) : Dat τ (Elt F) Unit ℕ (UC sig nD τ) ℕ cfg0 c where
  A w := V m c (Pipeline.arrRef (cfg0.spec) w)
  after w _ := w.elim0
  Φ t := match t with
    | ⟨0, _⟩ => Ends (cfg0.spec) osem R c (V m c)
    | ⟨_ + 1, _⟩ => Ends (cfg0.spec) osem R c (Y m c)
  q _ := fullShare
  owed _ := 0

abbrev 𝒱₀ : Variants := Variants.none

omit [FloatOps F] in
/-- The kernel's four cells at zero, one by one. -/
theorem ownSems0_eq (c : Dev nD) :
    (Pipeline.ownSems0 (Ix := Unit) (Name := ℕ) (U := UC sig nD τ) (Lvl := ℕ) (Val := Elt F) (τ := τ) osem c : sProp 𝕄)
      = iprop(semVal ((c : Thread nD τ), osem 0) 0 ∗ semVal ((c : Thread nD τ), osem 1) 0 ∗ semVal ((c : Thread nD τ), osem 2) 0
          ∗ semVal ((c : Thread nD τ), osem 3) 0) :=
  Pipeline.ownSems0_eq_of_list c osem [0, 1, 2, 3] (by decide) (by decide)

/-- The invariant's ends at this program's lists: the six arrays one by one, the four cells, no scoped rest, the
    register. -/
theorem ends_eq (c : Dev nD) (W : (b : Ref sig .tc) → Buf (Elt F) ((c : Thread nD τ).loc b)) :
    (Ends (cfg0.spec) osem R c W : sProp 𝕄)
      = iprop((pt c (Memref.whole main_arg0) (W main_arg0) ∗ pt c (Memref.whole main_arg1) (W main_arg1)
            ∗ pt c (Memref.whole main_arg2) (W main_arg2) ∗ pt c (Memref.whole main_arg3) (W main_arg3)
            ∗ pt c (Memref.whole main_v0_0) (W main_v0_0) ∗ pt c (Memref.whole main_v0_1) (W main_v0_1))
          ∗ (semVal ((c : Thread nD τ), osem 0) 0 ∗ semVal ((c : Thread nD τ), osem 1) 0 ∗ semVal ((c : Thread nD τ), osem 2) 0
            ∗ semVal ((c : Thread nD τ), osem 3) 0)
          ∗ emp ∗ ∃ r, prngReg c r) := by
  unfold Ends Pipeline.routed
  rw [bigSep_eq_bigSepL held (by decide), ownSems0_eq, scopedRest0_eq]
  rfl

/-- The library's body obligation at the one point: the invariant taken apart, the body's run applied, its post put
    back together. -/
theorem body_obligation (c : Dev nD) : BodyObligation (dats m 0 c) (defs₀ (F := F)) 𝒱₀ () Set.univ := fun t => by
  obtain rfl := fin_N0 t
  rw [show (dats m 0 c).Φ t0_0.castSucc = Ends (cfg0.spec) osem R c (V m c) from rfl,
    show (dats m 0 c).Φ t0_0.succ = Ends (cfg0.spec) osem R c (Y m c) from rfl, ends_eq, ends_eq,
    Y_main_arg0, Y_main_arg1, Y_main_arg2, Y_main_arg3, Y_main_v0_0, Y_main_v0_1]
  unfold Dat.owesAt Pipeline.owesWithin
  rw [show (dats m 0 c).owed t0_0.castSucc = 0 from rfl, show (dats m 0 c).owed t0_0.succ = 0 from rfl]
  iintro ⟨⟨⟨H0, H1, H2, H3, Hv0, Hv1⟩, ⟨Hs0, Hs1, Hs2, Hs3⟩, -, Hp⟩, ⟨%W, %hW, HO⟩, -⟩
  iapply (kernelRun c (V m c main_arg0) (V m c main_arg1) (V m c main_arg2) (V m c main_arg3) (V m c main_v0_0) (V m c main_v0_1) W)
  isplitl [H0]; · iexact H0
  isplitl [H1]; · iexact H1
  isplitl [H2]; · iexact H2
  isplitl [H3]; · iexact H3
  isplitl [Hv0]; · iexact Hv0
  isplitl [Hv1]; · iexact Hv1
  isplitl [Hs0]; · iexact Hs0
  isplitl [Hs1]; · iexact Hs1
  isplitl [Hs2]; · iexact Hs2
  isplitl [Hs3]; · iexact Hs3
  isplitl [HO]; · iexact HO
  iintro ⟨H0, H1, H2, H3, Hv0, Hv1, Hs0, Hs1, Hs2, Hs3, ⟨%W', HO⟩⟩
  isplitl [H0 H1 H2 H3 Hv0 Hv1 Hs0 Hs1 Hs2 Hs3 Hp]
  · isplitl [H0 H1 H2 H3 Hv0 Hv1]
    · isplitl [H0]; · iexact H0
      isplitl [H1]; · iexact H1
      isplitl [H2]; · iexact H2
      isplitl [H3]; · iexact H3
      isplitl [Hv0]; · iexact Hv0
      iexact Hv1
    isplitl [Hs0 Hs1 Hs2 Hs3]
    · isplitl [Hs0]; · iexact Hs0
      isplitl [Hs1]; · iexact Hs1
      isplitl [Hs2]; · iexact Hs2
      iexact Hs3
    isplitr; · iempintro
    iexact Hp
  isplitl [HO]
  · iexists W'; isplitr; · ipureintro; exact fun _ _ => Or.inl trivial
    iexact HO
  rw [show (Finset.univ : Finset (Fin cfg0.W)) = ∅ from rfl, bigSep_empty]
  iempintro

/-! ## The launch -/

/-- The layout the launch needs of the kernel's own cells: scoped, pairwise distinct, none a staging semaphore. -/
theorem ownSemFacts : Pipeline.OwnSemFacts (cfg0.spec) osem := by decide

/-- At the compiled mesh, for any float values, from any memory with zero counters: every weakly fair execution of the
    program on the TensorCores terminates, and every final state holds `Y` in the six arrays. -/
theorem run_main :
    θ_run defs (onTc (τ := τ) (main (F := F))) (s₀ m ρ) (RoutedPost cfgs (dats m) 0 R (V m) (Y m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_region cfgs 0 defs₀ 𝒱₀ m main fun c => (main_chain c).trans rfl)
    (hA := fun _ _ => rfl) (R := R) (hR := by decide) (Y := Y m) (hin := fun _ => .rfl) (hout := fun _ => .rfl)

/-! ## The final contents, read off the post -/

variable {m ρ}

/-- After the run the first result is the K cache with the new K rows appended, as the transfers leave it; -/
theorem final_v0_0 {r : PUnit × MemSt nD τ sig (Elt F)} (h : RoutedPost cfgs (dats m) 0 R (V m) (Y m) r) (c : Dev nD) :
    r.2.mem ((c : Thread nD τ).loc main_v0_0)
      = landed0 c (m ((c : Thread nD τ).loc main_arg0)) (m ((c : Thread nD τ).loc main_arg2)) :=
  ((h c).2.1 main_v0_0 (by decide)).trans (Y_main_v0_0 m c)

/-- the second the V cache with the new V rows appended; -/
theorem final_v0_1 {r : PUnit × MemSt nD τ sig (Elt F)} (h : RoutedPost cfgs (dats m) 0 R (V m) (Y m) r) (c : Dev nD) :
    r.2.mem ((c : Thread nD τ).loc main_v0_1)
      = landed1 c (m ((c : Thread nD τ).loc main_arg1)) (m ((c : Thread nD τ).loc main_arg3)) :=
  ((h c).2.1 main_v0_1 (by decide)).trans (Y_main_v0_1 m c)

/-- and the four argument arrays hold what they held at launch. -/
theorem final_arg0 {r : PUnit × MemSt nD τ sig (Elt F)} (h : RoutedPost cfgs (dats m) 0 R (V m) (Y m) r) (c : Dev nD) :
    r.2.mem ((c : Thread nD τ).loc main_arg0) = m ((c : Thread nD τ).loc main_arg0) :=
  ((h c).2.1 main_arg0 (by decide)).trans (Y_main_arg0 m c)
theorem final_arg1 {r : PUnit × MemSt nD τ sig (Elt F)} (h : RoutedPost cfgs (dats m) 0 R (V m) (Y m) r) (c : Dev nD) :
    r.2.mem ((c : Thread nD τ).loc main_arg1) = m ((c : Thread nD τ).loc main_arg1) :=
  ((h c).2.1 main_arg1 (by decide)).trans (Y_main_arg1 m c)
theorem final_arg2 {r : PUnit × MemSt nD τ sig (Elt F)} (h : RoutedPost cfgs (dats m) 0 R (V m) (Y m) r) (c : Dev nD) :
    r.2.mem ((c : Thread nD τ).loc main_arg2) = m ((c : Thread nD τ).loc main_arg2) :=
  ((h c).2.1 main_arg2 (by decide)).trans (Y_main_arg2 m c)
theorem final_arg3 {r : PUnit × MemSt nD τ sig (Elt F)} (h : RoutedPost cfgs (dats m) 0 R (V m) (Y m) r) (c : Dev nD) :
    r.2.mem ((c : Thread nD τ).loc main_arg3) = m ((c : Thread nD τ).loc main_arg3) :=
  ((h c).2.1 main_arg3 (by decide)).trans (Y_main_arg3 m c)

end Cert.Proof.KernelIdeal

end
-- ==== Proof.Rows.lean ====
/-
  Appending rows to a cache, as one function of the index.

  A cache of shape [4, 32, 8192, 128] and new rows of shape [4, 32, 16, 128] are joined along the row axis (axis 2)
  into an array of shape [4, 32, 8208, 128]: row r of the result is row r of the cache when r < 8192, and row
  r - 8192 of the new rows otherwise; the other three coordinates are carried over unchanged (`appended`).

  Two things compute exactly this function. The host's two-operand concatenation along axis 2 does
  (`concatenate_eq_appended`): an index whose row falls in the first operand's extent reads the first operand there,
  any other reads the second operand at the row less that extent. And so does a buffer into which the cache was
  written through the row range [0, 8192) and the new rows through the row range [8192, 8208), whatever it held before
  (`read_writes_eq_appended`): a row below 8192 misses the second range and sits in the first at its own position, a row
  from 8192 on sits in the second range at its position less 8192. No arithmetic on the elements is involved, so the
  statements hold for any element type.
-/
import Idealize.ShloMosaic.Lib.WritesUnit
import Idealize.ShloMosaic.Lib.Pipeline.Value
import Idealize.ShloMosaic.Lib.ValueIdx

namespace Cert.Proof.Append

open Idealize.ShloMosaic Idealize.ShloMosaic.ValueIdx

/-- The cache's shape, the new rows' shape, and the shape of the two joined along the row axis. -/
abbrev Cache : Shape := ⟨4, ![4, 32, 8192, 128]⟩
abbrev Fresh : Shape := ⟨4, ![4, 32, 16, 128]⟩
abbrev Joint : Shape := ⟨4, ![4, 32, 8208, 128]⟩

/-- The cache's index under an index of the joined array whose row is below 8192: the same four coordinates. -/
def lowIdx (j : Joint.Idx) (h : (j 2).val < 8192) : Cache.Idx :=
  ix4 (⟨(j 0).val, (j 0).isLt⟩ : Fin 4) (⟨(j 1).val, (j 1).isLt⟩ : Fin 32) (⟨(j 2).val, h⟩ : Fin 8192) (⟨(j 3).val, (j 3).isLt⟩ : Fin 128)

/-- The new rows' index under an index of the joined array whose row is 8192 or more: the row less 8192, the other
    three coordinates the same. -/
def highIdx (j : Joint.Idx) (h : ¬ (j 2).val < 8192) : Fresh.Idx :=
  ix4 (⟨(j 0).val, (j 0).isLt⟩ : Fin 4) (⟨(j 1).val, (j 1).isLt⟩ : Fin 32)
    (⟨(j 2).val - 8192, by have h2 : (j 2).val < 8208 := (j 2).isLt; omega⟩ : Fin 16) (⟨(j 3).val, (j 3).isLt⟩ : Fin 128)

variable {α : Type}

/-- The cache with the new rows appended: below row 8192 the cache, from row 8192 on the new rows. -/
def appended (cache : Cache.Idx → α) (fresh : Fresh.Idx → α) : Joint.Idx → α := fun j =>
  if h : (j 2).val < 8192 then cache (lowIdx j h) else fresh (highIdx j h)

/-- The host's concatenation of the two along axis 2 is `appended`. -/
theorem concatenate_eq_appended (cache : Cache.Idx → α) (fresh : Fresh.Idx → α) (hc : Shape.Concatenates [Cache, Fresh] Joint 2) :
    concatenate Joint 2 [⟨Cache, cache⟩, ⟨Fresh, fresh⟩] hc = appended cache fresh := by
  funext j
  unfold appended
  by_cases h : (j 2).val < 8192
  · rw [dif_pos h]
    refine concatenate_pair_apply_left (t := Joint) (s₁ := Cache) (s₂ := Fresh) (2 : Fin 4) cache fresh hc j rfl (lowIdx j h) fun b => ?_
    match b with
    | ⟨0, _⟩ => rfl
    | ⟨1, _⟩ => rfl
    | ⟨2, _⟩ => rfl
    | ⟨3, _⟩ => rfl
  · rw [dif_neg h]
    refine concatenate_pair_apply_right (t := Joint) (s₁ := Cache) (s₂ := Fresh) (2 : Fin 4) cache fresh hc j rfl rfl (highIdx j h)
      (fun b hb => ?_) ?_
    · match b, hb with
      | ⟨0, _⟩, _ => rfl
      | ⟨1, _⟩, _ => rfl
      | ⟨2, _⟩, hb => exact absurd rfl hb
      | ⟨3, _⟩, _ => rfl
    · show (j 2).val - 8192 + 8192 = (j 2).val
      omega

section Writes

variable {sig : RefSig} {κ : Kind} {sp : Space} {e : EltTy} {Val : EltTy → Type}

/-- A buffer of the joined shape into which the cache was written through rows [0, 8192) and then the new rows through
    rows [8192, 8208) reads back as `appended`, whatever it held before. -/
theorem read_writes_eq_appended (v : View sig κ sp Joint e) (f : v.ty.Contents Val)
    (inbC : ∀ a, (![0, 0, 0, 0] : Fin 4 → ℕ) a + Cache.size a ≤ Joint.size a)
    (inbF : ∀ a, (![0, 0, 8192, 0] : Fin 4 → ℕ) a + Fresh.size a ≤ Joint.size a)
    (cache : Cache.Idx → Val e) (fresh : Fresh.Idx → Val e) :
    v.read Val (v.writes Val f [(⟨Rect.unit (s := Joint) ![0, 0, 8192, 0] Fresh.size inbF, fresh⟩ : View.Piece Val Joint e),
      (⟨Rect.unit (s := Joint) ![0, 0, 0, 0] Cache.size inbC, cache⟩ : View.Piece Val Joint e)])
      = appended cache fresh := by
  funext j
  unfold appended
  by_cases h : (j 2).val < 8192
  · rw [dif_pos h]
    refine (View.read_writes_cons_unit_of_not_mem v f inbF fresh _ j rfl (2 : Fin 4) (Or.inl h)).trans ?_
    refine View.read_writes_cons_unit_of_mem v f inbC cache [] j (lowIdx j h) rfl fun a => ?_
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · rw [dif_neg h]
    refine View.read_writes_cons_unit_of_mem v f inbF fresh _ j (highIdx j h) rfl fun a => ?_
    match a with
    | ⟨0, _⟩ => exact (Nat.zero_add _).symm
    | ⟨1, _⟩ => exact (Nat.zero_add _).symm
    | ⟨2, _⟩ => show (j 2).val = 8192 + ((j 2).val - 8192); omega
    | ⟨3, _⟩ => exact (Nat.zero_add _).symm

end Writes

end Cert.Proof.Append
-- ==== Proof.lean ====
/-
  The cache-append kernel against `jnp.concatenate`: the five claims of `Cert.Claim`.

  The kernel leaves its arrays in HBM and copies them itself: the K cache and the new K rows into the two row ranges
  [0, 8192) and [8192, 8208) of the first result, the V cache and the new V rows likewise into the second. The reference
  concatenates each pair along the row axis. Nothing is computed on the elements, so the two agree for every element
  type and the precondition (finite inputs) is never opened.

  * The kernel's two frames (the program as printed, read at machine words, and the same text read at the extended
    reals) are its run with the results dropped: every execution terminates without a fault, and the four argument
    arrays, which the body only reads, end as they were launched (Proof/KernelRun.lean, Proof/KernelIdealRun.lean).
  * The reference's frame is its generated straight-line run, the results dropped.
  * The idealization rewrote nothing, so there is nothing to preserve.
  * Equal results: after the kernel's run each result is the two copied arrays written through the two row ranges;
    read back, that is the cache with the new rows appended (`Append.appended`: below row 8192 the cache, from row 8192
    on the new rows at the row less 8192), and the host's concatenation along axis 2 is the same function
    (Proof/Rows.lean). Both programs' results are stated at that one function of arguments that agree.
-/
import proofs.«182210_j17789754540260_2_alg».proof.Defs
import proofs.«182210_j17789754540260_2_alg».proof.Proof.Gen.Kernel
import proofs.«182210_j17789754540260_2_alg».proof.Proof.Gen.KernelIdeal
import proofs.«182210_j17789754540260_2_alg».proof.Proof.Gen.ReferenceIdeal
import proofs.«182210_j17789754540260_2_alg».proof.Proof.Gen.ReferenceIdeal.Run
import proofs.«182210_j17789754540260_2_alg».proof.Proof.Gen.Pre_finite_inputs
import proofs.«182210_j17789754540260_2_alg».proof.Proof.KernelRun
import proofs.«182210_j17789754540260_2_alg».proof.Proof.KernelIdealRun
import proofs.«182210_j17789754540260_2_alg».proof.Proof.Rows
import Idealize.ShloMosaic.Adequacy
import Idealize.ShloMosaic.Init

noncomputable section

namespace Cert.Proof

open Idealize.ShloMosaic Idealize.ShloMosaic.TcCoe Idealize.SL.Sem

/-! ## What the transfers leave is the cache with the new rows appended -/

section Landed

open Cert.KernelIdeal Cert.KernelIdeal.Gen Cert.Proof.KernelIdeal

variable {F : FTy → Type} [FloatOps F]

/-- A whole HBM array read through its own whole view is the array. -/
theorem read_whole (b : Ref sig .tc) {c : Dev nD} (X : Buf (Elt F) ((Memref.whole b).view.loc (c : Thread nD τ))) :
    (Memref.whole b).view.read (Elt F) X = X := rfl

/-- The first result as the body leaves it — the new rows written through rows [8192, 8208) over the cache written
    through rows [0, 8192) — is the cache with the new rows appended. -/
theorem landed0_eq (c : Dev nD) (cache : S4x32x8192x128.Idx → Elt F .f32) (fresh : S4x32x16x128.Idx → Elt F .f32) :
    landed0 c cache fresh = Append.appended cache fresh :=
  (read_whole main_v0_0 (landed0 c cache fresh)).symm.trans
    (Append.read_writes_eq_appended (Memref.whole main_v0_0).view _ _ _ cache fresh)

/-- The second result likewise. -/
theorem landed1_eq (c : Dev nD) (cache : S4x32x8192x128.Idx → Elt F .f32) (fresh : S4x32x16x128.Idx → Elt F .f32) :
    landed1 c cache fresh = Append.appended cache fresh :=
  (read_whole main_v0_1 (landed1 c cache fresh)).symm.trans
    (Append.read_writes_eq_appended (Memref.whole main_v0_1).view _ _ _ cache fresh)

end Landed

/-! ## The claims -/

/-- The printed kernel's frame: its run, the two results dropped. -/
theorem frame_kernel : Cert.frame_Kernel := fun m ρ _ =>
  (θ_run Cert.Kernel.defs _ _).mono
    (fun _ h c => ⟨Kernel.final_arg0 h c, Kernel.final_arg1 h c, Kernel.final_arg2 h c, Kernel.final_arg3 h c⟩)
    (Kernel.run_main (F := Bits) m ρ)

/-- The idealized kernel's frame: the same run read at the extended reals. -/
theorem frame_kernelIdeal : Cert.frame_KernelIdeal := fun m ρ _ =>
  (θ_run Cert.KernelIdeal.defs _ _).mono
    (fun _ h c => ⟨KernelIdeal.final_arg0 h c, KernelIdeal.final_arg1 h c, KernelIdeal.final_arg2 h c, KernelIdeal.final_arg3 h c⟩)
    (KernelIdeal.run_main (F := Ideal) m ρ)

/-- The reference's frame: its straight-line run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments both programs end with the first result at the K cache with the new
    K rows appended and the second at the V cache with the new V rows appended: the kernel's by what its transfers leave
    read back, the reference's by its concatenations read as the same function. -/
theorem algebraic : Cert.algebraic_KernelIdeal_ReferenceIdeal := by
  intro m ρ m' ρ' _ hagree
  refine ⟨fun c => Append.appended (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Append.appended (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun _ h c => ⟨(KernelIdeal.final_v0_0 h c).trans (landed0_eq c _ _), (KernelIdeal.final_v0_1 h c).trans (landed1_eq c _ _),
        KernelIdeal.final_arg0 h c, KernelIdeal.final_arg1 h c, KernelIdeal.final_arg2 h c, KernelIdeal.final_arg3 h c⟩)
      (KernelIdeal.run_main (F := Ideal) m ρ)
  · refine (θ_run Cert.ReferenceIdeal.defs _ _).mono (fun _ h c => ?_) (Cert.ReferenceIdeal.Value.run (F := Ideal) m' ρ')
    obtain ⟨h0, h1, hrest⟩ := h c
    obtain ⟨e0, e1, e2, e3⟩ := hagree c
    refine ⟨h0.trans ?_, h1.trans ?_, hrest⟩
    · rw [e0, e2]; exact Append.concatenate_eq_appended _ _ _
    · rw [e1, e3]; exact Append.concatenate_eq_appended _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
